-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S4096x4096 : Shape := ⟨2, ![4096, 4096]⟩
abbrev S4096x16 : Shape := ⟨2, ![4096, 16]⟩
abbrev S16x4096 : Shape := ⟨2, ![16, 4096]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  main_v18

def fn {F : FTy → Type} [FloatOps F] (main_arg0 : FVec F S4096x8192 .f32) (main_arg1 : FVec F S4096x4096 .f32) (main_arg2 : FVec F S4096x16 .f32) (main_arg3 : FVec F S16x4096 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_v13 main_v16
-- ==== Kernel.lean ====
abbrev S4096x8192 : Shape := ⟨2, ![4096, 8192]⟩
abbrev S4096x4096 : Shape := ⟨2, ![4096, 4096]⟩
abbrev S4096x16 : Shape := ⟨2, ![4096, 16]⟩
abbrev S16x4096 : Shape := ⟨2, ![16, 4096]⟩
abbrev S1024x256 : Shape := ⟨2, ![1024, 256]⟩
abbrev S1024x16 : Shape := ⟨2, ![1024, 16]⟩
abbrev S16x256 : Shape := ⟨2, ![16, 256]⟩
abbrev S256x2048 : Shape := ⟨2, ![256, 2048]⟩
abbrev S1024x2048 : Shape := ⟨2, ![1024, 2048]⟩
abbrev S16x2048 : Shape := ⟨2, ![16, 2048]⟩

abbrev nBuf : Space → Nat
  | .hbm => 5
  | .vmem => 11
  | .smem => 0
  | _ => 0

abbrev bufTy : (tb : Table) → Fin (tcTables nBuf tb) → BufTy
  | .hbm, ⟨0, _⟩ => ⟨S4096x8192, .f32⟩
  | .hbm, ⟨1, _⟩ => ⟨S4096x4096, .f32⟩
  | .hbm, ⟨2, _⟩ => ⟨S4096x16, .f32⟩
  | .hbm, ⟨3, _⟩ => ⟨S16x4096, .f32⟩
  | .hbm, ⟨4, _⟩ => ⟨S4096x8192, .f32⟩
  | .local _ .vmem, ⟨0, _⟩ => ⟨S1024x256, .f32⟩
  | .local _ .vmem, ⟨1, _⟩ => ⟨S1024x256, .f32⟩
  | .local _ .vmem, ⟨2, _⟩ => ⟨S1024x16, .f32⟩
  | .local _ .vmem, ⟨3, _⟩ => ⟨S1024x16, .f32⟩
  | .local _ .vmem, ⟨4, _⟩ => ⟨S16x256, .f32⟩
  | .local _ .vmem, ⟨5, _⟩ => ⟨S16x256, .f32⟩
  | .local _ .vmem, ⟨6, _⟩ => ⟨S256x2048, .f32⟩
  | .local _ .vmem, ⟨7, _⟩ => ⟨S256x2048, .f32⟩
  | .local _ .vmem, ⟨8, _⟩ => ⟨S1024x2048, .f32⟩
  | .local _ .vmem, ⟨9, _⟩ => ⟨S1024x2048, .f32⟩
  | .local _ .vmem, ⟨10, _⟩ => ⟨S16x2048, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S1024x2048_S1024x2048_0_0 : ∀ a, (![0, 0] : Fin 2 → Nat) a + S1024x2048.size a ≤ S1024x2048.size a
  h_S1024x2048 : 0 < S1024x2048.numel
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S1024x2048_S1024x2048 : S1024x2048.ShapeCasts S1024x2048
  inb_S16x256_S16x256_0_0 : ∀ a, (![0, 0] : Fin 2 → Nat) a + S16x256.size a ≤ S16x256.size a
  h_S16x256 : 0 < S16x256.numel
  inb_S1024x16_S1024x16_0_0 : ∀ a, (![0, 0] : Fin 2 → Nat) a + S1024x16.size a ≤ S1024x16.size a
  h_S1024x16 : 0 < S1024x16.numel
  dot_S1024x256_S256x2048_S1024x2048_1_0_0_1_n_n_wf : DotDims.WF S1024x256 S256x2048 S1024x2048 [1] [0] [0] [1] [] []
  dot_S16x256_S256x2048_S16x2048_1_0_0_1_n_n_wf : DotDims.WF S16x256 S256x2048 S16x2048 [1] [0] [0] [1] [] []
  dot_S1024x16_S16x2048_S1024x2048_1_0_0_1_n_n_wf : DotDims.WF S1024x16 S16x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x4096.size a
  hwx0_0 : ∀ i : grid0.Coords, EltTy.bits .f32 = 32 ∨ (Rect.block (s := S4096x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x4096.size a
  hwx0_2 : ∀ i : grid0.Coords, EltTy.bits .f32 = 32 ∨ (Rect.block (s := S16x4096) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S4096x8192.size a
  hwx0_3 : ∀ i : grid0.Coords, EltTy.bits .f32 = 32 ∨ (Rect.block (s := S4096x8192) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S4096x8192.size a
  hwx0_4 : ∀ i : grid0.Coords, EltTy.bits .f32 = 32 ∨ (Rect.block (s := S4096x8192) S1024x2048.size (cc0_transform_4 i) (hinb0_4 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf
def dot_S16x256_S256x2048_S16x2048_1_0_0_1_n_n : DotDims S16x256 S256x2048 S16x2048 where
  lhsContracting := [1]
  rhsContracting := [0]
  lhsNonContracting := [0]
  rhsNonContracting := [1]
  lhsBatch := []
  rhsBatch := []
  wf := dot_S16x256_S256x2048_S16x2048_1_0_0_1_n_n_wf
def dot_S1024x16_S16x2048_S1024x2048_1_0_0_1_n_n : DotDims S1024x16 S16x2048 S1024x2048 where
  lhsContracting := [1]
  rhsContracting := [0]
  lhsNonContracting := [0]
  rhsNonContracting := [1]
  lhsBatch := []
  rhsBatch := []
  wf := dot_S1024x16_S16x2048_S1024x2048_1_0_0_1_n_n_wf

abbrev win0_0 : Pipeline.Window sig grid0 :=
  Pipeline.Window.ofSpec (Memref.whole main_arg1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S4096x4096 : Shape := ⟨2, ![4096, 4096]⟩
abbrev S4096x16 : Shape := ⟨2, ![4096, 16]⟩
abbrev S16x4096 : Shape := ⟨2, ![16, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x4096, .f32⟩
  | .hbm, ⟨2, _⟩ => ⟨S4096x16, .f32⟩
  | .hbm, ⟨3, _⟩ => ⟨S16x4096, .f32⟩
  | .hbm, ⟨4, _⟩ => ⟨S4096x4096, .f32⟩
  | .hbm, ⟨5, _⟩ => ⟨S4096x4096, .f32⟩
  | .hbm, ⟨6, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  dot_S4096x16_S16x4096_S4096x4096_1_0_0_1_n_n_wf : DotDims.WF S4096x16 S16x4096 S4096x4096 [1] [0] [0] [1] [] []
  dot_S4096x4096_S4096x8192_S4096x8192_1_0_0_1_n_n_wf : DotDims.WF S4096x4096 S4096x8192 S4096x8192 [1] [0] [0] [1] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.StepValues.lean ====
/-
  What one grid step of the kernel leaves behind, case by case. The body has three control cases, told apart by the
  position k of the step along the reduction axis of the grid:

    first step  (k = 0):       the output block and the scratch are zeroed, then one block product is added to each;
    middle step (0 < k < 15):  one block product is added to the output block and one to the scratch;
    last step   (k = 15):      the same, and then the product of the low-rank block with the finished scratch is added
                               to the output block.

  Each statement below says that what the case leaves in the output block (or in the scratch) is the body's own
  arithmetic (the payload terms) applied to the input blocks and to what the step before left. Every load and store of
  the body goes through the whole staging buffer, so a load reads the buffer's contents and the last store to a buffer
  decides what it holds. The statements hold for any interpretation of the floating-point operations.
-/
import proofs.«114844_j40372692583098_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.StepValues

open Cert.KernelIdeal Cert.KernelIdeal.Gen

variable {F : FTy → Type} [FloatOps F]

/-- The offsets of a whole-buffer rectangle are all zero. -/
theorem zero_offsets : (![0, 0] : Fin 2 → Nat) = fun _ => 0 := funext fun a => by fin_cases a <;> rfl

/-- First step, output block: zero, then the weight block times the input block added to it. -/
theorem first_out (c : Dev nD) (i : grid0.Coords) (arg3 : Memref sig .tc .vmem S1024x256 .f32) (harg3 : arg3.IsWhole) (arg4 : Memref sig .tc .vmem S1024x16 .f32) (harg4 : arg4.IsWhole) (arg5 : Memref sig .tc .vmem S16x256 .f32) (harg5 : arg5.IsWhole) (arg6 : Memref sig .tc .vmem S256x2048 .f32) (harg6 : arg6.IsWhole) (arg7 : Memref sig .tc .vmem S1024x2048 .f32) (harg7 : arg7.IsWhole) (arg8 : Memref sig .tc .vmem S16x2048 .f32) (harg8 : arg8.IsWhole) (hc0 : cond0_0 i) (hc1 : ¬cond0_1 i) (x0 : Vec F S1024x256 .f32) (x1 : Vec F S1024x16 .f32) (x2 : Vec F S16x256 .f32) (x3 : Vec F S256x2048 .f32) :
    out0_A_4 c i arg3 harg3 arg4 harg4 arg5 harg5 arg6 harg6 arg7 harg7 arg8 harg8 hc0 hc1 x0 x1 x2 x3 = k0_pay4 x0 x3 k0_pay1 := by
  unfold out0_A_4
  rw [View.read_writes_eq_canon _ _ _ (cover0_A_4 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x2048) zero_offsets, View.readCov_unit_zero (S := S1024x2048) _ zero_offsets]
  simp only [View.readAt_eq_ld, harg3.read_unread, harg6.read_unread, View.ld_unit_zero (S := S1024x256) zero_offsets,
    View.ld_unit_zero (S := S256x2048) zero_offsets]

/-- First step, scratch: zero, then the low-rank factor's block times the input block added to it. -/
theorem first_scratch (c : Dev nD) (i : grid0.Coords) (arg3 : Memref sig .tc .vmem S1024x256 .f32) (harg3 : arg3.IsWhole) (arg4 : Memref sig .tc .vmem S1024x16 .f32) (harg4 : arg4.IsWhole) (arg5 : Memref sig .tc .vmem S16x256 .f32) (harg5 : arg5.IsWhole) (arg6 : Memref sig .tc .vmem S256x2048 .f32) (harg6 : arg6.IsWhole) (arg7 : Memref sig .tc .vmem S1024x2048 .f32) (harg7 : arg7.IsWhole) (arg8 : Memref sig .tc .vmem S16x2048 .f32) (harg8 : arg8.IsWhole) (hc0 : cond0_0 i) (hc1 : ¬cond0_1 i) (x0 : Vec F S1024x256 .f32) (x1 : Vec F S1024x16 .f32) (x2 : Vec F S16x256 .f32) (x3 : Vec F S256x2048 .f32) :
    sout0_A_0 c i arg3 harg3 arg4 harg4 arg5 harg5 arg6 harg6 arg7 harg7 arg8 harg8 hc0 hc1 x0 x1 x2 x3 = k0_pay5 x3 x2 k0_pay2 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S16x2048) zero_offsets, View.readCov_unit_zero (S := S16x2048) _ zero_offsets]
  simp only [View.readAt_eq_ld, harg5.read_unread, harg6.read_unread, View.ld_unit_zero (S := S16x256) zero_offsets,
    View.ld_unit_zero (S := S256x2048) zero_offsets]

/-- Middle step, output block: the weight block times the input block added to what the step before left. -/
theorem middle_out (c : Dev nD) (i : grid0.Coords) (arg3 : Memref sig .tc .vmem S1024x256 .f32) (harg3 : arg3.IsWhole) (arg4 : Memref sig .tc .vmem S1024x16 .f32) (harg4 : arg4.IsWhole) (arg5 : Memref sig .tc .vmem S16x256 .f32) (harg5 : arg5.IsWhole) (arg6 : Memref sig .tc .vmem S256x2048 .f32) (harg6 : arg6.IsWhole) (arg7 : Memref sig .tc .vmem S1024x2048 .f32) (harg7 : arg7.IsWhole) (arg8 : Memref sig .tc .vmem S16x2048 .f32) (harg8 : arg8.IsWhole) (hc0 : ¬cond0_0 i) (hc1 : ¬cond0_1 i) (x0 : Vec F S1024x256 .f32) (x1 : Vec F S1024x16 .f32) (x2 : Vec F S16x256 .f32) (x3 : Vec F S256x2048 .f32) (xo4 : Vec F S1024x2048 .f32) (xs0 : Vec F S16x2048 .f32) :
    out0_B_4 c i arg3 harg3 arg4 harg4 arg5 harg5 arg6 harg6 arg7 harg7 arg8 harg8 hc0 hc1 x0 x1 x2 x3 xo4 xs0 = k0_pay4 x0 x3 xo4 := by
  unfold out0_B_4
  rw [View.read_writes_eq_canon _ _ _ (cover0_B_4 c i arg3 harg3 arg4 harg4 arg5 harg5 arg6 harg6 arg7 harg7 arg8 harg8 hc0 hc1 x0 x1 x2 x3 xo4 xs0)]
  unfold kernelRun0_B
  dsimp only
  rw [View.canon_unit_zero (S := S1024x2048) zero_offsets]
  simp only [View.readAt_eq_ld, harg3.read_unread, harg6.read_unread, harg7.read_unread,
    View.ld_unit_zero (S := S1024x256) zero_offsets, View.ld_unit_zero (S := S256x2048) zero_offsets,
    View.ld_unit_zero (S := S1024x2048) zero_offsets]

/-- Middle step, scratch: the low-rank factor's block times the input block added to what the step before left. -/
theorem middle_scratch (c : Dev nD) (i : grid0.Coords) (arg3 : Memref sig .tc .vmem S1024x256 .f32) (harg3 : arg3.IsWhole) (arg4 : Memref sig .tc .vmem S1024x16 .f32) (harg4 : arg4.IsWhole) (arg5 : Memref sig .tc .vmem S16x256 .f32) (harg5 : arg5.IsWhole) (arg6 : Memref sig .tc .vmem S256x2048 .f32) (harg6 : arg6.IsWhole) (arg7 : Memref sig .tc .vmem S1024x2048 .f32) (harg7 : arg7.IsWhole) (arg8 : Memref sig .tc .vmem S16x2048 .f32) (harg8 : arg8.IsWhole) (hc0 : ¬cond0_0 i) (hc1 : ¬cond0_1 i) (x0 : Vec F S1024x256 .f32) (x1 : Vec F S1024x16 .f32) (x2 : Vec F S16x256 .f32) (x3 : Vec F S256x2048 .f32) (xo4 : Vec F S1024x2048 .f32) (xs0 : Vec F S16x2048 .f32) :
    sout0_B_0 c i arg3 harg3 arg4 harg4 arg5 harg5 arg6 harg6 arg7 harg7 arg8 harg8 hc0 hc1 x0 x1 x2 x3 xo4 xs0 = k0_pay5 x3 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xo4 xs0)]
  unfold kernelRun0_B
  dsimp only
  rw [View.canon_unit_zero (S := S16x2048) zero_offsets]
  simp only [View.readAt_eq_ld, harg5.read_unread, harg6.read_unread, harg8.read_unread,
    View.ld_unit_zero (S := S16x256) zero_offsets, View.ld_unit_zero (S := S256x2048) zero_offsets,
    View.ld_unit_zero (S := S16x2048) zero_offsets]

/-- Last step, output block: the middle step's sum, then the low-rank block times the finished scratch added to it. -/
theorem last_out (c : Dev nD) (i : grid0.Coords) (arg3 : Memref sig .tc .vmem S1024x256 .f32) (harg3 : arg3.IsWhole) (arg4 : Memref sig .tc .vmem S1024x16 .f32) (harg4 : arg4.IsWhole) (arg5 : Memref sig .tc .vmem S16x256 .f32) (harg5 : arg5.IsWhole) (arg6 : Memref sig .tc .vmem S256x2048 .f32) (harg6 : arg6.IsWhole) (arg7 : Memref sig .tc .vmem S1024x2048 .f32) (harg7 : arg7.IsWhole) (arg8 : Memref sig .tc .vmem S16x2048 .f32) (harg8 : arg8.IsWhole) (hc0 : ¬cond0_0 i) (hc1 : cond0_1 i) (x0 : Vec F S1024x256 .f32) (x1 : Vec F S1024x16 .f32) (x2 : Vec F S16x256 .f32) (x3 : Vec F S256x2048 .f32) (xo4 : Vec F S1024x2048 .f32) (xs0 : Vec F S16x2048 .f32) :
    out0_C_4 c i arg3 harg3 arg4 harg4 arg5 harg5 arg6 harg6 arg7 harg7 arg8 harg8 hc0 hc1 x0 x1 x2 x3 xo4 xs0 = k0_pay6 x1 (k0_pay5 x3 x2 xs0) (k0_pay4 x0 x3 xo4) := by
  unfold out0_C_4
  rw [View.read_writes_eq_canon _ _ _ (cover0_C_4 c i arg3 harg3 arg4 harg4 arg5 harg5 arg6 harg6 arg7 harg7 arg8 harg8 hc0 hc1 x0 x1 x2 x3 xo4 xs0)]
  unfold kernelRun0_C
  dsimp only
  sl_unfold_words
  rw [View.canon_cons_unit_zero (S := S1024x2048) zero_offsets, View.readCov_unit_zero (S := S1024x2048) _ zero_offsets,
    View.readCov_unit_zero (S := S16x2048) _ zero_offsets]
  simp only [View.readAt_eq_ld, harg3.read_unread, harg4.read_unread, harg5.read_unread, harg6.read_unread,
    harg7.read_unread, harg8.read_unread, View.ld_unit_zero (S := S1024x256) zero_offsets,
    View.ld_unit_zero (S := S1024x16) zero_offsets, View.ld_unit_zero (S := S16x256) zero_offsets,
    View.ld_unit_zero (S := S256x2048) zero_offsets, View.ld_unit_zero (S := S1024x2048) zero_offsets,
    View.ld_unit_zero (S := S16x2048) zero_offsets]

/-- Last step, scratch: as at a middle step. -/
theorem last_scratch (c : Dev nD) (i : grid0.Coords) (arg3 : Memref sig .tc .vmem S1024x256 .f32) (harg3 : arg3.IsWhole) (arg4 : Memref sig .tc .vmem S1024x16 .f32) (harg4 : arg4.IsWhole) (arg5 : Memref sig .tc .vmem S16x256 .f32) (harg5 : arg5.IsWhole) (arg6 : Memref sig .tc .vmem S256x2048 .f32) (harg6 : arg6.IsWhole) (arg7 : Memref sig .tc .vmem S1024x2048 .f32) (harg7 : arg7.IsWhole) (arg8 : Memref sig .tc .vmem S16x2048 .f32) (harg8 : arg8.IsWhole) (hc0 : ¬cond0_0 i) (hc1 : cond0_1 i) (x0 : Vec F S1024x256 .f32) (x1 : Vec F S1024x16 .f32) (x2 : Vec F S16x256 .f32) (x3 : Vec F S256x2048 .f32) (xo4 : Vec F S1024x2048 .f32) (xs0 : Vec F S16x2048 .f32) :
    sout0_C_0 c i arg3 harg3 arg4 harg4 arg5 harg5 arg6 harg6 arg7 harg7 arg8 harg8 hc0 hc1 x0 x1 x2 x3 xo4 xs0 = k0_pay5 x3 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xo4 xs0)]
  unfold kernelRun0_C
  dsimp only
  sl_unfold_words
  rw [View.canon_unit_zero (S := S16x2048) zero_offsets]
  simp only [View.readAt_eq_ld, harg5.read_unread, harg6.read_unread, harg8.read_unread,
    View.ld_unit_zero (S := S16x256) zero_offsets, View.ld_unit_zero (S := S256x2048) zero_offsets,
    View.ld_unit_zero (S := S16x2048) zero_offsets]

end Cert.KernelIdeal.StepValues

end
-- ==== Proof.Steps.lean ====
/-
  The output block and the scratch after each grid position, one position at a time. What they hold after position t
  is the case of the body that runs at t (first, middle or last step of the reduction axis, by t % 16) applied to
  the input blocks at t and, except at a first step, to what position t - 1 left. The statements hold for any
  interpretation of the floating-point operations.
-/
import proofs.«114844_j40372692583098_2_alg».proof.Proof.StepValues

noncomputable section

open Idealize.ShloMosaic Idealize.ShloMosaic.TcCoe Idealize.SL.Sem

namespace Cert.KernelIdeal.Steps

open Cert.KernelIdeal Cert.KernelIdeal.Gen Cert.KernelIdeal.StepValues

variable {F : FTy → Type} [FloatOps F]
variable (m : (ℓ : Loc nD τ sig) → Buf (Elt F) ℓ)

/-- After a first step (t % 16 = 0): zero plus one block product, in the output block and in the scratch. -/
theorem first (c : Dev nD) (t : Fin cfg0.N) (h0 : t.val % 16 = 0) (h1 : ¬t.val % 16 = 15) :
    outsAt0 m c t.val t.isLt
      = (k0_pay4 (iblk m c 0 t) (iblk m c 3 t) k0_pay1, k0_pay5 (iblk m c 3 t) (iblk m c 2 t) k0_pay2) :=
  (outsAt0_A m c t h0 h1).trans (congrArg₂ Prod.mk
    (first_out c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t))
    (first_scratch c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)))

/-- After a middle step (t % 16 neither 0 nor 15): one more block product on what position t - 1 left. -/
theorem middle (c : Dev nD) (t : Fin cfg0.N) (h0 : ¬t.val % 16 = 0) (h1 : ¬t.val % 16 = 15) :
    outsAt0 m c t.val t.isLt
      = (k0_pay4 (iblk m c 0 t) (iblk m c 3 t) (outsAt0 m c (t.val - 1) (Nat.lt_of_le_of_lt (Nat.sub_le _ _) t.isLt)).1,
         k0_pay5 (iblk m c 3 t) (iblk m c 2 t) (outsAt0 m c (t.val - 1) (Nat.lt_of_le_of_lt (Nat.sub_le _ _) t.isLt)).2) :=
  (outsAt0_B m c t h0 h1).trans (congrArg₂ Prod.mk
    (middle_out c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2)
    (middle_scratch c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2))

/-- After a last step (t % 16 = 15): one more block product on what position t - 1 left, and then, in the output
    block, the low-rank block times the scratch as this step leaves it. -/
theorem last (c : Dev nD) (t : Fin cfg0.N) (h0 : ¬t.val % 16 = 0) (h1 : t.val % 16 = 15) :
    outsAt0 m c t.val t.isLt
      = (k0_pay6 (iblk m c 1 t) (k0_pay5 (iblk m c 3 t) (iblk m c 2 t) (outsAt0 m c (t.val - 1) (Nat.lt_of_le_of_lt (Nat.sub_le _ _) t.isLt)).2)
           (k0_pay4 (iblk m c 0 t) (iblk m c 3 t) (outsAt0 m c (t.val - 1) (Nat.lt_of_le_of_lt (Nat.sub_le _ _) t.isLt)).1),
         k0_pay5 (iblk m c 3 t) (iblk m c 2 t) (outsAt0 m c (t.val - 1) (Nat.lt_of_le_of_lt (Nat.sub_le _ _) t.isLt)).2) :=
  (outsAt0_C m c t h0 h1).trans (congrArg₂ Prod.mk
    (last_out c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2)
    (last_scratch c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2))

end Cert.KernelIdeal.Steps

end
-- ==== Proof.Blocks.lean ====
/-
  Where a grid step's input blocks sit in the whole arrays. Grid position t stands for the triple (i, j, k) with
  i = t / 64 the row block of the output, j = (t / 16) % 4 its column block and k = t % 16 the step along the reduction
  axis. At that position

    the weight block is rows 1024 i .. 1024 i + 1023 and columns 256 k .. 256 k + 255 of the weight matrix,
    the low-rank block is rows 1024 i .. 1024 i + 1023 of the first low-rank factor (all 16 columns),
    the factor block is columns 256 k .. 256 k + 255 of the second low-rank factor (all 16 rows),
    the input block is rows 256 k .. 256 k + 255 and columns 2048 j .. 2048 j + 2047 of the input.

  An entry of a block is the entry of the whole array at block index * block size + position inside the block.
-/
import proofs.«114844_j40372692583098_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The block indices of the five windows at grid position t, from the printed index maps, decided over the grid. -/
theorem weight_index : ∀ t : Fin cfg0.N, win0_0.index t 0 = t.val / 64 ∧ win0_0.index t 1 = t.val % 16 :=
  (by decide +kernel : ∀ t : Fin grid0.N, win0_0.index t 0 = t.val / 64 ∧ win0_0.index t 1 = t.val % 16)
theorem lowrank_index : ∀ t : Fin cfg0.N, win0_1.index t 0 = t.val / 64 ∧ win0_1.index t 1 = 0 :=
  (by decide +kernel : ∀ t : Fin grid0.N, win0_1.index t 0 = t.val / 64 ∧ win0_1.index t 1 = 0)
theorem factor_index : ∀ t : Fin cfg0.N, win0_2.index t 0 = 0 ∧ win0_2.index t 1 = t.val % 16 :=
  (by decide +kernel : ∀ t : Fin grid0.N, win0_2.index t 0 = 0 ∧ win0_2.index t 1 = t.val % 16)
theorem input_index : ∀ t : Fin cfg0.N, win0_3.index t 0 = t.val % 16 ∧ win0_3.index t 1 = t.val / 16 % 4 :=
  (by decide +kernel : ∀ t : Fin grid0.N, win0_3.index t 0 = t.val % 16 ∧ win0_3.index t 1 = t.val / 16 % 4)
theorem output_index : ∀ t : Fin cfg0.N, win0_4.index t 0 = t.val / 64 ∧ win0_4.index t 1 = t.val / 16 % 4 :=
  (by decide +kernel : ∀ t : Fin grid0.N, win0_4.index t 0 = t.val / 64 ∧ win0_4.index t 1 = t.val / 16 % 4)

/-- Entry (p, k) of the weight block at position t is entry (1024 (t / 64) + p, 256 (t % 16) + k) of the weights. -/
theorem weight_block (c : Dev nD) (t : Fin cfg0.N) (p : Fin 1024) (k : Fin 256) (r kk : Fin 4096)
    (hr : r.val = 1024 * (t.val / 64) + p.val) (hk : kk.val = 256 * (t.val % 16) + k.val) :
    (iblk m c 0 t : Vec F S1024x256 .f32) (ix2 p k) = V m c main_arg1 (ix2 r kk) := by
  have hi := weight_index t
  unfold iblk
  rw [View.read_apply]
  show V m c main_arg1 _ = V m c main_arg1 _
  congr 1
  funext a
  apply Fin.ext
  match a with
  | ⟨0, _⟩ => show win0_0.index t 0 * 1024 + 1 * p.val = r.val; rw [hi.1, hr]; omega
  | ⟨1, _⟩ => show win0_0.index t 1 * 256 + 1 * k.val = kk.val; rw [hi.2, hk]; omega

/-- Entry (p, q) of the low-rank block at position t is entry (1024 (t / 64) + p, q) of the first factor. -/
theorem lowrank_block (c : Dev nD) (t : Fin cfg0.N) (p : Fin 1024) (q : Fin 16) (r : Fin 4096)
    (hr : r.val = 1024 * (t.val / 64) + p.val) :
    (iblk m c 1 t : Vec F S1024x16 .f32) (ix2 p q) = V m c main_arg2 (ix2 r q) := by
  have hi := lowrank_index t
  unfold iblk
  rw [View.read_apply]
  show V m c main_arg2 _ = V m c main_arg2 _
  congr 1
  funext a
  apply Fin.ext
  match a with
  | ⟨0, _⟩ => show win0_1.index t 0 * 1024 + 1 * p.val = r.val; rw [hi.1, hr]; omega
  | ⟨1, _⟩ => show win0_1.index t 1 * 16 + 1 * q.val = q.val; rw [hi.2]; omega

/-- Entry (q, k) of the factor block at position t is entry (q, 256 (t % 16) + k) of the second factor. -/
theorem factor_block (c : Dev nD) (t : Fin cfg0.N) (q : Fin 16) (k : Fin 256) (kk : Fin 4096)
    (hk : kk.val = 256 * (t.val % 16) + k.val) :
    (iblk m c 2 t : Vec F S16x256 .f32) (ix2 q k) = V m c main_arg3 (ix2 q kk) := by
  have hi := factor_index t
  unfold iblk
  rw [View.read_apply]
  show V m c main_arg3 _ = V m c main_arg3 _
  congr 1
  funext a
  apply Fin.ext
  match a with
  | ⟨0, _⟩ => show win0_2.index t 0 * 16 + 1 * q.val = q.val; rw [hi.1]; omega
  | ⟨1, _⟩ => show win0_2.index t 1 * 256 + 1 * k.val = kk.val; rw [hi.2, hk]; omega

/-- Entry (k, cc) of the input block at position t is entry (256 (t % 16) + k, 2048 (t / 16 % 4) + cc) of the input. -/
theorem input_block (c : Dev nD) (t : Fin cfg0.N) (k : Fin 256) (cc : Fin 2048) (kk : Fin 4096) (col : Fin 8192)
    (hk : kk.val = 256 * (t.val % 16) + k.val) (hc : col.val = 2048 * (t.val / 16 % 4) + cc.val) :
    (iblk m c 3 t : Vec F S256x2048 .f32) (ix2 k cc) = V m c main_arg0 (ix2 kk col) := by
  have hi := input_index t
  unfold iblk
  rw [View.read_apply]
  show V m c main_arg0 _ = V m c main_arg0 _
  congr 1
  funext a
  apply Fin.ext
  match a with
  | ⟨0, _⟩ => show win0_3.index t 0 * 256 + 1 * k.val = kk.val; rw [hi.1, hk]; omega
  | ⟨1, _⟩ => show win0_3.index t 1 * 2048 + 1 * cc.val = col.val; rw [hi.2, hc]; omega

end Cert.KernelIdeal.Blocks

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.StepAtIndex.lean ====
/-
  One grid step's arithmetic, entry by entry, over the extended reals. A change of float format is the identity there
  and a matrix product into a zero accumulator is the plain sum of products, so:

    the zero block is 0 at every entry;
    adding a block product to an accumulator adds, at entry (p, c), the sum over the 256 positions k of the block of
      (left block)(p, k) * (input block)(k, c);
    adding the low-rank term adds, at entry (p, c), the sum over the 16 ranks q of (low-rank block)(p, q) * scratch(q, c).
-/
import proofs.«114844_j40372692583098_2_alg».proof.Proof.Gen.KernelIdeal.Skeleton
import proofs.«114844_j40372692583098_2_alg».proof.Proof.LibPlainDot
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.StepAtIndex

open Cert.KernelIdeal Cert.KernelIdeal.Gen

/-- The weight block [1024, 256] times the input block [256, 2048]: a plain matrix product. -/
theorem plain_main : PlainDot.IsPlain dot_S1024x256_S256x2048_S1024x2048_1_0_0_1_n_n where
  rank := rfl
  size := rfl
  lhs0 := fun i q => by
    unfold DotDims.lhsIdx
    rw [dif_neg (show ¬(0 : Fin S1024x256.rank) ∈ dot_S1024x256_S256x2048_S1024x2048_1_0_0_1_n_n.lhsBatch by decide), dif_pos (show (0 : Fin S1024x256.rank) ∈ dot_S1024x256_S256x2048_S1024x2048_1_0_0_1_n_n.lhsNonContracting by decide)]
    rfl
  lhs1 := fun i q => dot_S1024x256_S256x2048_S1024x2048_1_0_0_1_n_n.lhsIdx_val_of_single rfl i q
  rhs0 := fun i q => dot_S1024x256_S256x2048_S1024x2048_1_0_0_1_n_n.rhsIdx_val_of_single rfl i q
  rhs1 := fun i q => by
    unfold DotDims.rhsIdx
    rw [dif_neg (show ¬(1 : Fin S256x2048.rank) ∈ dot_S1024x256_S256x2048_S1024x2048_1_0_0_1_n_n.rhsBatch by decide), dif_pos (show (1 : Fin S256x2048.rank) ∈ dot_S1024x256_S256x2048_S1024x2048_1_0_0_1_n_n.rhsNonContracting by decide)]
    rfl

/-- The low-rank factor's block [16, 256] times the input block [256, 2048]: a plain matrix product. -/
theorem plain_low : PlainDot.IsPlain dot_S16x256_S256x2048_S16x2048_1_0_0_1_n_n where
  rank := rfl
  size := rfl
  lhs0 := fun i q => by
    unfold DotDims.lhsIdx
    rw [dif_neg (show ¬(0 : Fin S16x256.rank) ∈ dot_S16x256_S256x2048_S16x2048_1_0_0_1_n_n.lhsBatch by decide), dif_pos (show (0 : Fin S16x256.rank) ∈ dot_S16x256_S256x2048_S16x2048_1_0_0_1_n_n.lhsNonContracting by decide)]
    rfl
  lhs1 := fun i q => dot_S16x256_S256x2048_S16x2048_1_0_0_1_n_n.lhsIdx_val_of_single rfl i q
  rhs0 := fun i q => dot_S16x256_S256x2048_S16x2048_1_0_0_1_n_n.rhsIdx_val_of_single rfl i q
  rhs1 := fun i q => by
    unfold DotDims.rhsIdx
    rw [dif_neg (show ¬(1 : Fin S256x2048.rank) ∈ dot_S16x256_S256x2048_S16x2048_1_0_0_1_n_n.rhsBatch by decide), dif_pos (show (1 : Fin S256x2048.rank) ∈ dot_S16x256_S256x2048_S16x2048_1_0_0_1_n_n.rhsNonContracting by decide)]
    rfl

/-- The low-rank block [1024, 16] times the scratch [16, 2048]: a plain matrix product. -/
theorem plain_up : PlainDot.IsPlain dot_S1024x16_S16x2048_S1024x2048_1_0_0_1_n_n where
  rank := rfl
  size := rfl
  lhs0 := fun i q => by
    unfold DotDims.lhsIdx
    rw [dif_neg (show ¬(0 : Fin S1024x16.rank) ∈ dot_S1024x16_S16x2048_S1024x2048_1_0_0_1_n_n.lhsBatch by decide), dif_pos (show (0 : Fin S1024x16.rank) ∈ dot_S1024x16_S16x2048_S1024x2048_1_0_0_1_n_n.lhsNonContracting by decide)]
    rfl
  lhs1 := fun i q => dot_S1024x16_S16x2048_S1024x2048_1_0_0_1_n_n.lhsIdx_val_of_single rfl i q
  rhs0 := fun i q => dot_S1024x16_S16x2048_S1024x2048_1_0_0_1_n_n.rhsIdx_val_of_single rfl i q
  rhs1 := fun i q => by
    unfold DotDims.rhsIdx
    rw [dif_neg (show ¬(1 : Fin S16x2048.rank) ∈ dot_S1024x16_S16x2048_S1024x2048_1_0_0_1_n_n.rhsBatch by decide), dif_pos (show (1 : Fin S16x2048.rank) ∈ dot_S1024x16_S16x2048_S1024x2048_1_0_0_1_n_n.rhsNonContracting by decide)]
    rfl

/-- The zero block stored into the output at the first step. -/
theorem zero_out (p : Fin 1024) (cc : Fin 2048) : k0_pay1 (F := Ideal) (ix2 p cc) = 0 := by
  unfold k0_pay1
  exact Ideal.ofBits_zero_f32

/-- The zero block stored into the scratch at the first step. -/
theorem zero_scratch (q : Fin 16) (cc : Fin 2048) : k0_pay2 (F := Ideal) (ix2 q cc) = 0 := by
  unfold k0_pay2
  refine (congrFun (shapeCast_self _ _) (ix2 q cc)).trans ?_
  exact Ideal.ofBits_zero_f32

/-- Adding the weight block times the input block to an accumulator, at entry (p, c). -/
theorem add_main (x0 : Vec Ideal S1024x256 .f32) (x3 : Vec Ideal S256x2048 .f32) (acc : Vec Ideal S1024x2048 .f32)
    (p : Fin 1024) (cc : Fin 2048) :
    k0_pay4 (F := Ideal) x0 x3 acc (ix2 p cc) = acc (ix2 p cc) + ∑ k : Fin 256, x0 (ix2 p k) * x3 (ix2 k cc) := by
  unfold k0_pay4 k0_pay3
  refine (congrArg₂ (· + ·) (congrFun (shapeCast_self acc shapeCasts_S1024x2048_S1024x2048) (ix2 p cc))
    (PlainDot.matmul_zero_apply dot_S1024x256_S256x2048_S1024x2048_1_0_0_1_n_n plain_main none
      (truncf .bf16 (x0 : FVec Ideal S1024x256 .f32) bitsLt_bf16_f32) (truncf .bf16 (x3 : FVec Ideal S256x2048 .f32) bitsLt_bf16_f32) p cc)).trans ?_
  rfl

/-- Adding the low-rank factor's block times the input block to the scratch, at entry (q, c). -/
theorem add_low (x3 : Vec Ideal S256x2048 .f32) (x2 : Vec Ideal S16x256 .f32) (acc : Vec Ideal S16x2048 .f32)
    (q : Fin 16) (cc : Fin 2048) :
    k0_pay5 (F := Ideal) x3 x2 acc (ix2 q cc) = acc (ix2 q cc) + ∑ k : Fin 256, x2 (ix2 q k) * x3 (ix2 k cc) := by
  unfold k0_pay5 k0_pay3
  refine (congrFun (shapeCast_self _ shapeCasts_S16x2048_S16x2048) (ix2 q cc)).trans ?_
  refine (congrArg (acc (ix2 q cc) + ·)
    (PlainDot.matmul_zero_apply dot_S16x256_S256x2048_S16x2048_1_0_0_1_n_n plain_low none
      (truncf .bf16 (x2 : FVec Ideal S16x256 .f32) bitsLt_bf16_f32) (truncf .bf16 (x3 : FVec Ideal S256x2048 .f32) bitsLt_bf16_f32) q cc)).trans ?_
  rfl

/-- Adding the low-rank block times the scratch to the output block, at entry (p, c). -/
theorem add_up (x1 : Vec Ideal S1024x16 .f32) (u : Vec Ideal S16x2048 .f32) (acc : Vec Ideal S1024x2048 .f32)
    (p : Fin 1024) (cc : Fin 2048) :
    k0_pay6 (F := Ideal) x1 u acc (ix2 p cc) = acc (ix2 p cc) + ∑ q : Fin 16, x1 (ix2 p q) * u (ix2 q cc) := by
  unfold k0_pay6
  refine (congrArg₂ (· + ·) (congrFun (shapeCast_self acc shapeCasts_S1024x2048_S1024x2048) (ix2 p cc))
    (PlainDot.matmul_zero_apply dot_S1024x16_S16x2048_S1024x2048_1_0_0_1_n_n plain_up none
      (truncf .bf16 (x1 : FVec Ideal S1024x16 .f32) bitsLt_bf16_f32) (truncf .bf16 (u : FVec Ideal S16x2048 .f32) bitsLt_bf16_f32) p cc)).trans ?_
  rfl

end Cert.KernelIdeal.StepAtIndex

end
-- ==== Proof.LibLoraLaw.lean ====
/-
  The algebra behind a low-rank update of a weight matrix. For a row of weights w, a row of low-rank coefficients a,
  a low-rank factor b and a column x,

      sum_k (w k + sum_q a q * b q k) * x k  =  sum_k w k * x k  +  sum_q a q * (sum_k b q k * x k),

  that is, (W + A B) x = W x + A (B x) entry by entry. Over the reals this is distributivity and an exchange of the two
  sums. Over the extended reals distributivity fails at the infinities, so the statement there asks every entry to be
  a real number; both sides are then the inclusion of the same real number.
-/
import Mathlib

noncomputable section

namespace Cert.LoraLaw

open BigOperators

/-- Over the reals: a row of W + A B against a column is the row of W against it plus the row of A against B x. -/
theorem real_law {K R : Type*} [Fintype K] [Fintype R] (w : K → ℝ) (a : R → ℝ) (b : R → K → ℝ) (x : K → ℝ) :
    ∑ k, (w k + ∑ q, a q * b q k) * x k = (∑ k, w k * x k) + ∑ q, a q * ∑ k, b q k * x k := by
  have h1 : ∀ k, (w k + ∑ q, a q * b q k) * x k = w k * x k + ∑ q, a q * (b q k * x k) := by
    intro k
    rw [add_mul, Finset.sum_mul]
    congr 1
    exact Finset.sum_congr rfl fun q _ => mul_assoc _ _ _
  rw [Finset.sum_congr rfl (fun k _ => h1 k), Finset.sum_add_distrib, Finset.sum_comm]
  congr 1
  exact Finset.sum_congr rfl fun q _ => (Finset.mul_sum _ _ _).symm

/-- The inclusion of the reals in the extended reals commutes with a sum over a finite type. -/
theorem coe_sum {ι : Type*} [Fintype ι] (f : ι → ℝ) : ((∑ i, f i : ℝ) : EReal) = ∑ i, (f i : EReal) := by
  classical
  refine Finset.induction_on (Finset.univ : Finset ι) (by simp) ?_
  intro i s hi ih
  rw [Finset.sum_insert hi, Finset.sum_insert hi, EReal.coe_add, ih]

/-- Over the extended reals, when every entry is a real number: the same identity. -/
theorem ereal_law {K R : Type*} [Fintype K] [Fintype R] (W : K → EReal) (A : R → EReal) (B : R → K → EReal) (X : K → EReal)
    (hW : ∀ k, ∃ r : ℝ, W k = r) (hA : ∀ q, ∃ r : ℝ, A q = r) (hB : ∀ q k, ∃ r : ℝ, B q k = r) (hX : ∀ k, ∃ r : ℝ, X k = r) :
    (∑ k, W k * X k) + ∑ q, A q * ∑ k, B q k * X k = ∑ k, (W k + ∑ q, A q * B q k) * X k := by
  choose w hw using hW
  choose a ha using hA
  choose b hb using hB
  choose x hx using hX
  have e1 : (∑ k, W k * X k) = ((∑ k, w k * x k : ℝ) : EReal) := by
    rw [coe_sum]
    exact Finset.sum_congr rfl fun k _ => by rw [hw, hx, EReal.coe_mul]
  have e2 : ∀ q, (∑ k, B q k * X k) = ((∑ k, b q k * x k : ℝ) : EReal) := by
    intro q
    rw [coe_sum]
    exact Finset.sum_congr rfl fun k _ => by rw [hb, hx, EReal.coe_mul]
  have e3 : (∑ q, A q * ∑ k, B q k * X k) = ((∑ q, a q * ∑ k, b q k * x k : ℝ) : EReal) := by
    rw [coe_sum]
    exact Finset.sum_congr rfl fun q _ => by rw [e2, ha, EReal.coe_mul]
  have e4 : ∀ k, (∑ q, A q * B q k) = ((∑ q, a q * b q k : ℝ) : EReal) := by
    intro k
    rw [coe_sum]
    exact Finset.sum_congr rfl fun q _ => by rw [ha, hb, EReal.coe_mul]
  have e5 : (∑ k, (W k + ∑ q, A q * B q k) * X k) = ((∑ k, (w k + ∑ q, a q * b q k) * x k : ℝ) : EReal) := by
    rw [coe_sum]
    exact Finset.sum_congr rfl fun k _ => by rw [e4, hw, hx, ← EReal.coe_add, EReal.coe_mul]
  rw [e1, e3, e5, ← EReal.coe_add, real_law]

end Cert.LoraLaw

end
-- ==== Proof.LoraSpec.lean ====
/-
  The two closed forms of the result, entry by entry, and their equality.

  Write W [4096, 4096] for the weights, A [4096, 16] and B [16, 4096] for the low-rank factors, X [4096, 8192] for the
  input. The kernel walks the 4096 positions of the contracted axis as 16 tiles of 256 and leaves, at entry (r, c),

      (sum over the positions s of W(r, s) * X(s, c))  +  sum over q of A(r, q) * (sum over s of B(q, s) * X(s, c)),

  the product W X plus the product of A with the small matrix B X. The reference forms W + A B first and leaves

      sum over s of (W(r, s) + sum over q of A(r, q) * B(q, s)) * X(s, c).

  When every entry of the four arrays is a real number the two agree (distributivity and an exchange of sums: the
  law module).
-/
import proofs.«114844_j40372692583098_2_alg».proof.Proof.LibLoraLaw
import Idealize.ShloMosaic.Lib.ValueIdx

noncomputable section

open Idealize.ShloMosaic Idealize.ShloMosaic.ValueIdx

namespace Cert.LoraSpec

/-- A position of the contracted axis counted through 16 tiles of 256, as a position among the 4096. -/
def pos (s : Fin (16 * 256)) : Fin 4096 := ⟨s.val, by have := s.isLt; omega⟩

/-- The product of row r of a left matrix with column c of the input, position by position. -/
def term {n : ℕ} (L : (⟨2, ![n, 4096]⟩ : Shape).Idx → EReal) (X : (⟨2, ![4096, 8192]⟩ : Shape).Idx → EReal)
    (r : Fin n) (c : Fin 8192) : Fin (16 * 256) → EReal :=
  fun s => L (ix2 r (pos s)) * X (ix2 (pos s) c)

/-- What the kernel leaves at entry (r, c). -/
def kernelEntry (W : (⟨2, ![4096, 4096]⟩ : Shape).Idx → EReal) (A : (⟨2, ![4096, 16]⟩ : Shape).Idx → EReal)
    (B : (⟨2, ![16, 4096]⟩ : Shape).Idx → EReal) (X : (⟨2, ![4096, 8192]⟩ : Shape).Idx → EReal)
    (r : Fin 4096) (c : Fin 8192) : EReal :=
  (∑ s, term W X r c s) + ∑ q : Fin 16, A (ix2 r q) * ∑ s, term B X q c s

/-- What the reference leaves at entry (r, c). -/
def referenceEntry (W : (⟨2, ![4096, 4096]⟩ : Shape).Idx → EReal) (A : (⟨2, ![4096, 16]⟩ : Shape).Idx → EReal)
    (B : (⟨2, ![16, 4096]⟩ : Shape).Idx → EReal) (X : (⟨2, ![4096, 8192]⟩ : Shape).Idx → EReal)
    (r : Fin 4096) (c : Fin 8192) : EReal :=
  ∑ k : Fin 4096, (W (ix2 r k) + ∑ q : Fin 16, A (ix2 r q) * B (ix2 q k)) * X (ix2 k c)

/-- The whole result array, from the kernel's closed form. -/
def result (W : (⟨2, ![4096, 4096]⟩ : Shape).Idx → EReal) (A : (⟨2, ![4096, 16]⟩ : Shape).Idx → EReal)
    (B : (⟨2, ![16, 4096]⟩ : Shape).Idx → EReal) (X : (⟨2, ![4096, 8192]⟩ : Shape).Idx → EReal) :
    (⟨2, ![4096, 8192]⟩ : Shape).Idx → EReal :=
  fun j => kernelEntry W A B X ⟨(j 0).val, (j 0).isLt⟩ ⟨(j 1).val, (j 1).isLt⟩

/-- A sum over the 16 tiles of 256 positions is the sum over the 4096 positions. -/
theorem sum_pos (g : Fin 4096 → EReal) : ∑ s : Fin (16 * 256), g (pos s) = ∑ k : Fin 4096, g k :=
  Equiv.sum_comp (finCongr (by norm_num : 16 * 256 = 4096)) g

/-- With every entry a real number, the kernel's entry is the reference's. -/
theorem kernelEntry_eq_referenceEntry (W : (⟨2, ![4096, 4096]⟩ : Shape).Idx → EReal) (A : (⟨2, ![4096, 16]⟩ : Shape).Idx → EReal)
    (B : (⟨2, ![16, 4096]⟩ : Shape).Idx → EReal) (X : (⟨2, ![4096, 8192]⟩ : Shape).Idx → EReal)
    (hW : ∀ i, ∃ x : ℝ, W i = x) (hA : ∀ i, ∃ x : ℝ, A i = x) (hB : ∀ i, ∃ x : ℝ, B i = x) (hX : ∀ i, ∃ x : ℝ, X i = x)
    (r : Fin 4096) (c : Fin 8192) :
    kernelEntry W A B X r c = referenceEntry W A B X r c := by
  unfold kernelEntry referenceEntry term
  rw [sum_pos (fun k => W (ix2 r k) * X (ix2 k c))]
  have e : ∀ q : Fin 16, (∑ s : Fin (16 * 256), B (ix2 q (pos s)) * X (ix2 (pos s) c)) = ∑ k : Fin 4096, B (ix2 q k) * X (ix2 k c) :=
    fun q => sum_pos (fun k => B (ix2 q k) * X (ix2 k c))
  rw [Finset.sum_congr rfl (fun q _ => congrArg (A (ix2 r q) * ·) (e q))]
  exact Cert.LoraLaw.ereal_law (fun k => W (ix2 r k)) (fun q => A (ix2 r q)) (fun q k => B (ix2 q k)) (fun k => X (ix2 k c))
    (fun k => hW _) (fun q => hA _) (fun q k => hB _) (fun k => hX _)

end Cert.LoraSpec

end
-- ==== Proof.LibSums.lean ====
/-
  General lemmas on finite sums, used to compare a sum accumulated tile by tile over zero-padded rows with the plain sum
  over the rows.

  * `coe_sum`: the inclusion of the reals in the extended reals commutes with finite sums.
  * `partialSum`: for a family indexed by `Fin (T * B)`, seen as `T` consecutive tiles of `B` entries, the sum of the
    entries of the first `t` tiles. It starts at `0`, grows by one tile's sum at each step, and ends at the full sum;
    so any accumulator obeying the same recurrence ends at the full sum (`acc_eq_sum`).
  * `sum_pad`: extending a family on `Fin n` by zeros to `Fin N` (`n ≤ N`) does not change its sum.
  Each statement is given for symbolic extents and again for the literal extents 62 * 16384 = 1015808 and
  1000000 ≤ 1015808.
-/
import Mathlib
import Idealize.ShloMosaic.PureOps.Ideal

noncomputable section

namespace Cert.LibSums

open BigOperators

/-! ### Real sums inside the extended reals -/

/-- The inclusion `ℝ → EReal` commutes with a finite sum. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The inclusion `ℝ → EReal` commutes with a sum over a whole finite type. -/
theorem coe_sum_univ {ι : Type*} [Fintype ι] (f : ι → ℝ) :
    ((∑ i, f i : ℝ) : EReal) = ∑ i, (f i : EReal) :=
  coe_sum Finset.univ f

/-! ### A sum accumulated tile by tile -/

section Tiles

variable {M : Type*} [AddCommMonoid M]

/-- Entry `i` of tile `t` lies inside `T` tiles of `B` entries. -/
theorem tile_idx_lt {T B t i : ℕ} (ht : t < T) (hi : i < B) : t * B + i < T * B := by
  have h1 : (t + 1) * B ≤ T * B := Nat.mul_le_mul_right B ht
  have h2 : (t + 1) * B = t * B + B := Nat.succ_mul t B
  omega

/-- The sum of the entries of the first `t` tiles of a family of `T` tiles of `B` entries: the entries whose position is
    below `t * B`. -/
def partialSum {T B : ℕ} (f : Fin (T * B) → M) (t : ℕ) : M :=
  ∑ p : Fin (T * B), if p.val < t * B then f p else 0

/-- No tile, no entry: the partial sum starts at zero. -/
theorem partialSum_zero {T B : ℕ} (f : Fin (T * B) → M) : partialSum f 0 = 0 := by
  unfold partialSum
  refine Finset.sum_eq_zero fun p _ => ?_
  rw [if_neg]
  omega

/-- All `T` tiles hold every entry: the last partial sum is the full sum. -/
theorem partialSum_top {T B : ℕ} (f : Fin (T * B) → M) : partialSum f T = ∑ p, f p := by
  unfold partialSum
  exact Finset.sum_congr rfl fun p _ => if_pos p.isLt

/-- One more tile adds that tile's sum: positions `t * B ≤ p < (t + 1) * B` are exactly `t * B + i` for `i < B`. -/
theorem partialSum_succ {T B : ℕ} (f : Fin (T * B) → M) {t : ℕ} (ht : t < T) :
    partialSum f (t + 1)
      = partialSum f t + ∑ i : Fin B, f ⟨t * B + i.val, tile_idx_lt ht i.isLt⟩ := by
  unfold partialSum
  have hB : (t + 1) * B = t * B + B := Nat.succ_mul t B
  have hsplit : ∀ p : Fin (T * B), (if p.val < (t + 1) * B then f p else 0)
      = (if p.val < t * B then f p else 0)
        + (if t * B ≤ p.val ∧ p.val < (t + 1) * B then f p else 0) := by
    intro p
    by_cases h1 : p.val < t * B
    · have h2 : p.val < (t + 1) * B := by omega
      have h3 : ¬ (t * B ≤ p.val ∧ p.val < (t + 1) * B) := by omega
      rw [if_pos h1, if_pos h2, if_neg h3, add_zero]
    · by_cases h2 : p.val < (t + 1) * B
      · have h3 : t * B ≤ p.val ∧ p.val < (t + 1) * B := ⟨by omega, h2⟩
        rw [if_neg h1, if_pos h2, if_pos h3, zero_add]
      · have h3 : ¬ (t * B ≤ p.val ∧ p.val < (t + 1) * B) := fun h => h2 h.2
        rw [if_neg h1, if_neg h2, if_neg h3, add_zero]
  rw [Finset.sum_congr rfl (fun p _ => hsplit p), Finset.sum_add_distrib]
  congr 1
  rw [← Finset.sum_filter]
  symm
  refine Finset.sum_bij (fun i _ => (⟨t * B + i.val, tile_idx_lt ht i.isLt⟩ : Fin (T * B))) ?_ ?_ ?_ ?_
  · intro i _
    have hi := i.isLt
    simp only [Finset.mem_filter, Finset.mem_univ, true_and]
    constructor <;> omega
  · intro i _ j _ h
    have hv : t * B + i.val = t * B + j.val := congrArg Fin.val h
    exact Fin.ext (by omega)
  · intro p hp
    simp only [Finset.mem_filter, Finset.mem_univ, true_and] at hp
    refine ⟨⟨p.val - t * B, by omega⟩, Finset.mem_univ _, ?_⟩
    apply Fin.ext
    show t * B + (p.val - t * B) = p.val
    omega
  · intro i _
    rfl

/-- An accumulator that starts at zero and gains one tile's sum at each of `T` steps is, after `t ≤ T` steps, the partial
    sum of the first `t` tiles. -/
theorem acc_eq_partialSum {T B : ℕ} (f : Fin (T * B) → M) (acc : ℕ → M) (h0 : acc 0 = 0)
    (hs : ∀ (t : ℕ) (ht : t < T), acc (t + 1) = acc t + ∑ i : Fin B, f ⟨t * B + i.val, tile_idx_lt ht i.isLt⟩) :
    ∀ t, t ≤ T → acc t = partialSum f t := by
  intro t
  induction t with
  | zero => intro _; rw [h0, partialSum_zero]
  | succ t ih =>
    intro ht
    have ht' : t < T := ht
    rw [hs t ht', partialSum_succ f ht', ih (Nat.le_of_lt ht')]

/-- … and after all `T` steps it is the full sum. -/
theorem acc_eq_sum {T B : ℕ} (f : Fin (T * B) → M) (acc : ℕ → M) (h0 : acc 0 = 0)
    (hs : ∀ (t : ℕ) (ht : t < T), acc (t + 1) = acc t + ∑ i : Fin B, f ⟨t * B + i.val, tile_idx_lt ht i.isLt⟩) :
    acc T = ∑ p, f p := by
  rw [acc_eq_partialSum f acc h0 hs T (Nat.le_refl T), partialSum_top]

/-! The same at 62 tiles of 16384 entries, 62 * 16384 = 1015808. -/

/-- Entry `i` of tile `t` lies below 1015808. -/
theorem tile_idx_lt' (t : Fin 62) (i : Fin 16384) : t.val * 16384 + i.val < 1015808 := by
  have ht := t.isLt
  have hi := i.isLt
  omega

/-- The sum of the first `t` tiles of 16384 entries of a family of 1015808 entries. -/
def partialSum62 (f : Fin 1015808 → M) (t : ℕ) : M :=
  ∑ p : Fin 1015808, if p.val < t * 16384 then f p else 0

theorem partialSum62_eq (f : Fin 1015808 → M) (t : ℕ) :
    partialSum62 f t = partialSum (T := 62) (B := 16384) f t := rfl

/-- It starts at zero. -/
theorem partialSum62_zero (f : Fin 1015808 → M) : partialSum62 f 0 = 0 :=
  partialSum_zero (T := 62) (B := 16384) f

/-- Tile `t` adds its 16384 entries. -/
theorem partialSum62_succ (f : Fin 1015808 → M) (t : Fin 62) :
    partialSum62 f (t.val + 1)
      = partialSum62 f t.val + ∑ i : Fin 16384, f ⟨t.val * 16384 + i.val, tile_idx_lt' t i⟩ :=
  partialSum_succ (T := 62) (B := 16384) f t.isLt

/-- After 62 tiles it is the full sum. -/
theorem partialSum62_top (f : Fin 1015808 → M) : partialSum62 f 62 = ∑ p, f p :=
  partialSum_top (T := 62) (B := 16384) f

/-- An accumulator over 62 grid points that starts at zero and gains tile `t`'s sum at point `t` ends at the full sum over
    the 1015808 entries. -/
theorem acc62_eq_sum (f : Fin 1015808 → M) (acc : ℕ → M) (h0 : acc 0 = 0)
    (hs : ∀ t : Fin 62, acc (t.val + 1)
      = acc t.val + ∑ i : Fin 16384, f ⟨t.val * 16384 + i.val, tile_idx_lt' t i⟩) :
    acc 62 = ∑ p, f p :=
  acc_eq_sum (T := 62) (B := 16384) f acc h0 (fun t ht => hs ⟨t, ht⟩)

end Tiles

/-! ### Zero padding -/

section Pad

variable {M : Type*} [AddCommMonoid M]

/-- A family on `Fin n` extended by zeros to `Fin N`, `n ≤ N`, has the same sum. -/
theorem sum_pad {n N : ℕ} (hnN : n ≤ N) (g : Fin n → M) :
    (∑ p : Fin N, (if h : p.val < n then g ⟨p.val, h⟩ else 0)) = ∑ r : Fin n, g r := by
  have h1 : (∑ p : Fin N, (if h : p.val < n then g ⟨p.val, h⟩ else 0))
      = ∑ k ∈ Finset.range N, (if h : k < n then g ⟨k, h⟩ else 0) :=
    Fin.sum_univ_eq_sum_range (fun k => if h : k < n then g ⟨k, h⟩ else 0) N
  have h2 : (∑ r : Fin n, g r) = ∑ k ∈ Finset.range n, (if h : k < n then g ⟨k, h⟩ else 0) := by
    rw [← Fin.sum_univ_eq_sum_range (fun k => if h : k < n then g ⟨k, h⟩ else 0) n]
    exact Finset.sum_congr rfl fun r _ => by rw [dif_pos r.isLt]
  rw [h1, h2]
  symm
  refine Finset.sum_subset (fun k hk => Finset.mem_range.2 (lt_of_lt_of_le (Finset.mem_range.1 hk) hnN)) fun k _ hk => ?_
  have hkn : ¬ k < n := fun hlt => hk (Finset.mem_range.2 hlt)
  exact dif_neg hkn

/-- The same for a family of a position alone, cut off at `n`. -/
theorem sum_pad_nat {n N : ℕ} (hnN : n ≤ N) (g : ℕ → M) :
    (∑ p : Fin N, (if p.val < n then g p.val else 0)) = ∑ r : Fin n, g r.val := by
  rw [← sum_pad hnN (fun r : Fin n => g r.val)]
  exact Finset.sum_congr rfl fun p _ => by
    by_cases h : p.val < n
    · rw [if_pos h, dif_pos h]
    · rw [if_neg h, dif_neg h]

/-- 1,000,000 rows padded by zeros to 1,015,808 have the same sum. -/
theorem sum_pad_rows (g : Fin 1000000 → M) :
    (∑ p : Fin 1015808, (if h : p.val < 1000000 then g ⟨p.val, h⟩ else 0)) = ∑ r : Fin 1000000, g r :=
  sum_pad (by norm_num) g

/-- The same for a table of rows and columns, at a fixed column. -/
theorem sum_pad_rows₂ {κ : Type*} (g : Fin 1000000 → κ → M) (c : κ) :
    (∑ p : Fin 1015808, (if h : p.val < 1000000 then g ⟨p.val, h⟩ c else 0)) = ∑ r : Fin 1000000, g r c :=
  sum_pad_rows (fun r => g r c)

end Pad

end Cert.LibSums

end
-- ==== Proof.RunningSums.lean ====
/-
  The running sums. Fix an output block (row block i, column block j). Its 16 grid positions t = 64 i + 16 j + k,
  k = 0 .. 15, walk the contracted axis one tile of 256 positions at a time. After step k the output block holds, at
  entry (p, c), the sum of W(r, s) * X(s, col) over the positions s of the tiles 0 .. k, where r = 1024 i + p and
  col = 2048 j + c are the entry's row and column in the whole arrays; the scratch holds, at (q, c), the same sum
  with B(q, s) in place of W(r, s). Both start from zero at k = 0 and gain one tile's sum at each step. At the last
  step the scratch is complete, it is B X restricted to the block's columns, and the output block receives in
  addition the sum over q of A(r, q) * scratch(q, c). So what is written back is the kernel's closed form.
-/
import proofs.«114844_j40372692583098_2_alg».proof.Proof.Steps
import proofs.«114844_j40372692583098_2_alg».proof.Proof.Blocks
import proofs.«114844_j40372692583098_2_alg».proof.Proof.StepAtIndex
import proofs.«114844_j40372692583098_2_alg».proof.Proof.LoraSpec
import proofs.«114844_j40372692583098_2_alg».proof.Proof.LibSums

noncomputable section

open Idealize.ShloMosaic Idealize.ShloMosaic.TcCoe Idealize.SL.Sem Idealize.ShloMosaic.ValueIdx

namespace Cert.KernelIdeal.RunningSums

open Cert.KernelIdeal Cert.KernelIdeal.Gen Cert.LoraSpec Cert.LibSums
open Cert.KernelIdeal.StepAtIndex Cert.KernelIdeal.Blocks

variable (m : (ℓ : Loc nD τ sig) → Buf (Elt Ideal) ℓ)

/-- The four arrays as the kernel's region finds them: weights, first and second low-rank factor, input. -/
abbrev Wt (c : Dev nD) : (⟨2, ![4096, 4096]⟩ : Shape).Idx → EReal := V m c main_arg1
abbrev At (c : Dev nD) : (⟨2, ![4096, 16]⟩ : Shape).Idx → EReal := V m c main_arg2
abbrev Bt (c : Dev nD) : (⟨2, ![16, 4096]⟩ : Shape).Idx → EReal := V m c main_arg3
abbrev Xt (c : Dev nD) : (⟨2, ![4096, 8192]⟩ : Shape).Idx → EReal := V m c main_arg0

/-! ### One tile's sum, from the blocks to the whole arrays -/

/-- A left block times the input block at (p, c) is tile k's part of the sum of L(r, s) * X(s, col), once the two blocks'
    entries are known to be the whole arrays' entries at the tile's positions. -/
theorem tile_sum {n a : ℕ} (L : (⟨2, ![n, 4096]⟩ : Shape).Idx → EReal) (X : (⟨2, ![4096, 8192]⟩ : Shape).Idx → EReal)
    (xl : (⟨2, ![a, 256]⟩ : Shape).Idx → EReal) (xr : (⟨2, ![256, 2048]⟩ : Shape).Idx → EReal)
    (kb : ℕ) (hkb : kb < 16) (p : Fin a) (cc : Fin 2048) (r : Fin n) (col : Fin 8192)
    (hl : ∀ k : Fin 256, xl (ix2 p k) = L (ix2 r (pos ⟨kb * 256 + k.val, tile_idx_lt hkb k.isLt⟩)))
    (hx : ∀ k : Fin 256, xr (ix2 k cc) = X (ix2 (pos ⟨kb * 256 + k.val, tile_idx_lt hkb k.isLt⟩) col)) :
    ∑ k : Fin 256, xl (ix2 p k) * xr (ix2 k cc)
      = ∑ i : Fin 256, term L X r col ⟨kb * 256 + i.val, tile_idx_lt hkb i.isLt⟩ :=
  Finset.sum_congr rfl fun k _ => congrArg₂ (· * ·) (hl k) (hx k)

/-- The weight block times the input block at position t, entry (p, c): tile t % 16 of the sum of W(r, s) * X(s, col). -/
theorem tile_main (c : Dev nD) (t : Fin cfg0.N) (kb : ℕ) (hkb : kb < 16) (hk : t.val % 16 = kb) (p : Fin 1024) (cc : Fin 2048)
    (r : Fin 4096) (col : Fin 8192) (hr : r.val = 1024 * (t.val / 64) + p.val) (hc : col.val = 2048 * (t.val / 16 % 4) + cc.val)
    (x0 : Vec Ideal S1024x256 .f32) (x3 : Vec Ideal S256x2048 .f32) (e0 : x0 = iblk m c 0 t) (e3 : x3 = iblk m c 3 t) :
    ∑ k : Fin 256, x0 (ix2 p k) * x3 (ix2 k cc)
      = ∑ i : Fin 256, term (Wt m c) (Xt m c) r col ⟨kb * 256 + i.val, tile_idx_lt hkb i.isLt⟩ :=
  tile_sum (a := 1024) (Wt m c) (Xt m c) x0 x3 kb hkb p cc r col
    (fun k => (congrFun e0 (ix2 p k)).trans (weight_block m c t p k r (pos ⟨kb * 256 + k.val, tile_idx_lt hkb k.isLt⟩) hr
      (by show kb * 256 + k.val = 256 * (t.val % 16) + k.val; omega)))
    (fun k => (congrFun e3 (ix2 k cc)).trans (input_block m c t k cc (pos ⟨kb * 256 + k.val, tile_idx_lt hkb k.isLt⟩) col
      (by show kb * 256 + k.val = 256 * (t.val % 16) + k.val; omega) hc))

/-- The factor block times the input block at position t, entry (q, c): tile t % 16 of the sum of B(q, s) * X(s, col). -/
theorem tile_low (c : Dev nD) (t : Fin cfg0.N) (kb : ℕ) (hkb : kb < 16) (hk : t.val % 16 = kb) (q : Fin 16) (cc : Fin 2048)
    (col : Fin 8192) (hc : col.val = 2048 * (t.val / 16 % 4) + cc.val)
    (x2 : Vec Ideal S16x256 .f32) (x3 : Vec Ideal S256x2048 .f32) (e2 : x2 = iblk m c 2 t) (e3 : x3 = iblk m c 3 t) :
    ∑ k : Fin 256, x2 (ix2 q k) * x3 (ix2 k cc)
      = ∑ i : Fin 256, term (Bt m c) (Xt m c) q col ⟨kb * 256 + i.val, tile_idx_lt hkb i.isLt⟩ :=
  tile_sum (a := 16) (Bt m c) (Xt m c) x2 x3 kb hkb q cc q col
    (fun k => (congrFun e2 (ix2 q k)).trans (factor_block m c t q k (pos ⟨kb * 256 + k.val, tile_idx_lt hkb k.isLt⟩)
      (by show kb * 256 + k.val = 256 * (t.val % 16) + k.val; omega)))
    (fun k => (congrFun e3 (ix2 k cc)).trans (input_block m c t k cc (pos ⟨kb * 256 + k.val, tile_idx_lt hkb k.isLt⟩) col
      (by show kb * 256 + k.val = 256 * (t.val % 16) + k.val; omega) hc))

/-! ### The scratch, step by step -/

/-- After a first step the scratch holds the first tile's sum. -/
theorem scratch_first (c : Dev nD) (t : Fin cfg0.N) (h0 : t.val % 16 = 0) (q : Fin 16) (cc : Fin 2048) (col : Fin 8192)
    (hc : col.val = 2048 * (t.val / 16 % 4) + cc.val) :
    (outsAt0 m c t.val t.isLt).2 (ix2 q cc) = partialSum (T := 16) (B := 256) (term (Bt m c) (Xt m c) q col) 1 := by
  have e : (outsAt0 m c t.val t.isLt).2 = k0_pay5 (iblk m c 3 t) (iblk m c 2 t) (k0_pay2 (F := Ideal)) :=
    congrArg Prod.snd (Steps.first m c t h0 (by omega))
  rw [e]
  refine (add_low (iblk m c 3 t) (iblk m c 2 t) (k0_pay2 (F := Ideal)) q cc).trans ?_
  rw [zero_scratch, partialSum_succ _ (by omega : 0 < 16), partialSum_zero]
  exact congrArg (0 + ·) (tile_low m c t 0 (by omega) h0 q cc col hc (iblk m c 2 t) (iblk m c 3 t) rfl rfl)

/-- After a later step the scratch has gained that step's tile. -/
theorem scratch_next (c : Dev nD) (t : Fin cfg0.N) (kb : ℕ) (hkb : kb + 1 < 16) (hk : t.val % 16 = kb + 1) (q : Fin 16) (cc : Fin 2048)
    (col : Fin 8192) (hc : col.val = 2048 * (t.val / 16 % 4) + cc.val)
    (ih : (outsAt0 m c (t.val - 1) (Nat.lt_of_le_of_lt (Nat.sub_le _ _) t.isLt)).2 (ix2 q cc) = partialSum (T := 16) (B := 256) (term (Bt m c) (Xt m c) q col) (kb + 1)) :
    (outsAt0 m c t.val t.isLt).2 (ix2 q cc) = partialSum (T := 16) (B := 256) (term (Bt m c) (Xt m c) q col) (kb + 1 + 1) := by
  have e : (outsAt0 m c t.val t.isLt).2 = k0_pay5 (iblk m c 3 t) (iblk m c 2 t) (outsAt0 m c (t.val - 1) (Nat.lt_of_le_of_lt (Nat.sub_le _ _) t.isLt)).2 := by
    by_cases h15 : t.val % 16 = 15
    · exact congrArg Prod.snd (Steps.last m c t (by omega) h15)
    · exact congrArg Prod.snd (Steps.middle m c t (by omega) h15)
  rw [e]
  refine (add_low (iblk m c 3 t) (iblk m c 2 t) (outsAt0 m c (t.val - 1) (Nat.lt_of_le_of_lt (Nat.sub_le _ _) t.isLt)).2 q cc).trans ?_
  rw [ih, partialSum_succ _ hkb]
  exact congrArg (partialSum (T := 16) (B := 256) (term (Bt m c) (Xt m c) q col) (kb + 1) + ·) (tile_low m c t (kb + 1) hkb hk q cc col hc (iblk m c 2 t) (iblk m c 3 t) rfl rfl)

/-! ### The output block, step by step -/

/-- After a first step the output block holds the first tile's sum. -/
theorem out_first (c : Dev nD) (t : Fin cfg0.N) (h0 : t.val % 16 = 0) (p : Fin 1024) (cc : Fin 2048) (r : Fin 4096) (col : Fin 8192)
    (hr : r.val = 1024 * (t.val / 64) + p.val) (hc : col.val = 2048 * (t.val / 16 % 4) + cc.val) :
    (outsAt0 m c t.val t.isLt).1 (ix2 p cc) = partialSum (T := 16) (B := 256) (term (Wt m c) (Xt m c) r col) 1 := by
  have e : (outsAt0 m c t.val t.isLt).1 = k0_pay4 (iblk m c 0 t) (iblk m c 3 t) (k0_pay1 (F := Ideal)) :=
    congrArg Prod.fst (Steps.first m c t h0 (by omega))
  rw [e]
  refine (add_main (iblk m c 0 t) (iblk m c 3 t) (k0_pay1 (F := Ideal)) p cc).trans ?_
  rw [zero_out, partialSum_succ _ (by omega : 0 < 16), partialSum_zero]
  exact congrArg (0 + ·) (tile_main m c t 0 (by omega) h0 p cc r col hr hc (iblk m c 0 t) (iblk m c 3 t) rfl rfl)

/-- After a middle step the output block has gained that step's tile. -/
theorem out_next (c : Dev nD) (t : Fin cfg0.N) (kb : ℕ) (hkb : kb + 1 < 15) (hk : t.val % 16 = kb + 1) (p : Fin 1024) (cc : Fin 2048)
    (r : Fin 4096) (col : Fin 8192) (hr : r.val = 1024 * (t.val / 64) + p.val) (hc : col.val = 2048 * (t.val / 16 % 4) + cc.val)
    (ih : (outsAt0 m c (t.val - 1) (Nat.lt_of_le_of_lt (Nat.sub_le _ _) t.isLt)).1 (ix2 p cc) = partialSum (T := 16) (B := 256) (term (Wt m c) (Xt m c) r col) (kb + 1)) :
    (outsAt0 m c t.val t.isLt).1 (ix2 p cc) = partialSum (T := 16) (B := 256) (term (Wt m c) (Xt m c) r col) (kb + 1 + 1) := by
  have e : (outsAt0 m c t.val t.isLt).1 = k0_pay4 (iblk m c 0 t) (iblk m c 3 t) (outsAt0 m c (t.val - 1) (Nat.lt_of_le_of_lt (Nat.sub_le _ _) t.isLt)).1 :=
    congrArg Prod.fst (Steps.middle m c t (by omega) (by omega))
  rw [e]
  refine (add_main (iblk m c 0 t) (iblk m c 3 t) (outsAt0 m c (t.val - 1) (Nat.lt_of_le_of_lt (Nat.sub_le _ _) t.isLt)).1 p cc).trans ?_
  rw [ih, partialSum_succ _ (by omega : kb + 1 < 16)]
  exact congrArg (partialSum (T := 16) (B := 256) (term (Wt m c) (Xt m c) r col) (kb + 1) + ·)
    (tile_main m c t (kb + 1) (by omega) hk p cc r col hr hc (iblk m c 0 t) (iblk m c 3 t) rfl rfl)

/-- After the last step the output block holds the whole sum of W(r, s) * X(s, col) plus, for each q, A(r, q) times the
    whole sum of B(q, s) * X(s, col). -/
theorem out_last (c : Dev nD) (t : Fin cfg0.N) (hk : t.val % 16 = 15) (p : Fin 1024) (cc : Fin 2048)
    (r : Fin 4096) (col : Fin 8192) (hr : r.val = 1024 * (t.val / 64) + p.val) (hc : col.val = 2048 * (t.val / 16 % 4) + cc.val)
    (ihO : (outsAt0 m c (t.val - 1) (Nat.lt_of_le_of_lt (Nat.sub_le _ _) t.isLt)).1 (ix2 p cc) = partialSum (T := 16) (B := 256) (term (Wt m c) (Xt m c) r col) 15)
    (ihS : ∀ q : Fin 16, (outsAt0 m c (t.val - 1) (Nat.lt_of_le_of_lt (Nat.sub_le _ _) t.isLt)).2 (ix2 q cc) = partialSum (T := 16) (B := 256) (term (Bt m c) (Xt m c) q col) 15) :
    (outsAt0 m c t.val t.isLt).1 (ix2 p cc) = kernelEntry (Wt m c) (At m c) (Bt m c) (Xt m c) r col := by
  have e : (outsAt0 m c t.val t.isLt).1
      = k0_pay6 (iblk m c 1 t) (k0_pay5 (iblk m c 3 t) (iblk m c 2 t) (outsAt0 m c (t.val - 1) (Nat.lt_of_le_of_lt (Nat.sub_le _ _) t.isLt)).2)
          (k0_pay4 (iblk m c 0 t) (iblk m c 3 t) (outsAt0 m c (t.val - 1) (Nat.lt_of_le_of_lt (Nat.sub_le _ _) t.isLt)).1) :=
    congrArg Prod.fst (Steps.last m c t (by omega) hk)
  rw [e]
  refine (add_up (iblk m c 1 t) (k0_pay5 (iblk m c 3 t) (iblk m c 2 t) (outsAt0 m c (t.val - 1) (Nat.lt_of_le_of_lt (Nat.sub_le _ _) t.isLt)).2)
    (k0_pay4 (iblk m c 0 t) (iblk m c 3 t) (outsAt0 m c (t.val - 1) (Nat.lt_of_le_of_lt (Nat.sub_le _ _) t.isLt)).1) p cc).trans ?_
  unfold kernelEntry
  refine congrArg₂ (· + ·) ?_ (Finset.sum_congr rfl fun q _ => congrArg₂ (· * ·) (lowrank_block m c t p q r hr) ?_)
  · refine (add_main (iblk m c 0 t) (iblk m c 3 t) (outsAt0 m c (t.val - 1) (Nat.lt_of_le_of_lt (Nat.sub_le _ _) t.isLt)).1 p cc).trans ?_
    rw [ihO, ← partialSum_top (T := 16) (B := 256), partialSum_succ _ (by omega : 15 < 16)]
    exact congrArg (partialSum (T := 16) (B := 256) (term (Wt m c) (Xt m c) r col) 15 + ·)
      (tile_main m c t 15 (by omega) hk p cc r col hr hc (iblk m c 0 t) (iblk m c 3 t) rfl rfl)
  · refine (add_low (iblk m c 3 t) (iblk m c 2 t) (outsAt0 m c (t.val - 1) (Nat.lt_of_le_of_lt (Nat.sub_le _ _) t.isLt)).2 q cc).trans ?_
    rw [ihS q, ← partialSum_top (T := 16) (B := 256), partialSum_succ _ (by omega : 15 < 16)]
    exact congrArg (partialSum (T := 16) (B := 256) (term (Bt m c) (Xt m c) q col) 15 + ·)
      (tile_low m c t 15 (by omega) hk q cc col hc (iblk m c 2 t) (iblk m c 3 t) rfl rfl)

/-! ### The induction along one output block's 16 positions -/

/-- The contents after a position do not depend on how the position is written. -/
theorem outsAt_congr (c : Dev nD) (n n' : ℕ) (h : n < cfg0.N) (h' : n' < cfg0.N) (e : n = n') :
    outsAt0 m c n h = outsAt0 m c n' h' := by
  subst e; rfl

/-- After step k < 15 of the block (i, j): the scratch and the output block hold the sums over the tiles 0 .. k. -/
theorem partial_sums (c : Dev nD) (bi bj : ℕ) (hbi : bi < 4) (hbj : bj < 4) :
    ∀ (kb : ℕ) (hkb : kb < 15) (h : 64 * bi + 16 * bj + kb < cfg0.N),
      (∀ (q : Fin 16) (cc : Fin 2048) (col : Fin 8192), col.val = 2048 * bj + cc.val →
        (outsAt0 m c (64 * bi + 16 * bj + kb) h).2 (ix2 q cc)
          = partialSum (T := 16) (B := 256) (term (Bt m c) (Xt m c) q col) (kb + 1))
      ∧ (∀ (p : Fin 1024) (cc : Fin 2048) (r : Fin 4096) (col : Fin 8192), r.val = 1024 * bi + p.val → col.val = 2048 * bj + cc.val →
        (outsAt0 m c (64 * bi + 16 * bj + kb) h).1 (ix2 p cc)
          = partialSum (T := 16) (B := 256) (term (Wt m c) (Xt m c) r col) (kb + 1))
  | 0, hkb, h => by
    have h0 : (⟨64 * bi + 16 * bj + 0, h⟩ : Fin cfg0.N).val % 16 = 0 := by show (64 * bi + 16 * bj + 0) % 16 = 0; omega
    refine ⟨fun q cc col hc => scratch_first m c ⟨64 * bi + 16 * bj + 0, h⟩ h0 q cc col ?_,
      fun p cc r col hr hc => out_first m c ⟨64 * bi + 16 * bj + 0, h⟩ h0 p cc r col ?_ ?_⟩
    · show col.val = 2048 * ((64 * bi + 16 * bj + 0) / 16 % 4) + cc.val; omega
    · show r.val = 1024 * ((64 * bi + 16 * bj + 0) / 64) + p.val; omega
    · show col.val = 2048 * ((64 * bi + 16 * bj + 0) / 16 % 4) + cc.val; omega
  | kb + 1, hkb, h => by
    have ih := partial_sums c bi bj hbi hbj kb (by omega) (Nat.lt_of_succ_lt h)
    have hk : (⟨64 * bi + 16 * bj + (kb + 1), h⟩ : Fin cfg0.N).val % 16 = kb + 1 := by
      show (64 * bi + 16 * bj + (kb + 1)) % 16 = kb + 1; omega
    refine ⟨fun q cc col hc => scratch_next m c ⟨64 * bi + 16 * bj + (kb + 1), h⟩ kb (by omega) hk q cc col ?_ (ih.1 q cc col hc),
      fun p cc r col hr hc => out_next m c ⟨64 * bi + 16 * bj + (kb + 1), h⟩ kb hkb hk p cc r col ?_ ?_ (ih.2 p cc r col hr hc)⟩
    · show col.val = 2048 * ((64 * bi + 16 * bj + (kb + 1)) / 16 % 4) + cc.val; omega
    · show r.val = 1024 * ((64 * bi + 16 * bj + (kb + 1)) / 64) + p.val; omega
    · show col.val = 2048 * ((64 * bi + 16 * bj + (kb + 1)) / 16 % 4) + cc.val; omega

/-- WHAT IS WRITTEN BACK. At a last step (t % 16 = 15) the output block holds, at (p, c), the kernel's closed form at the
    entry's row and column in the whole result. -/
theorem block_done (c : Dev nD) (t : Fin cfg0.N) (hk : t.val % 16 = 15) (p : Fin 1024) (cc : Fin 2048) (r : Fin 4096) (col : Fin 8192)
    (hr : r.val = 1024 * (t.val / 64) + p.val) (hc : col.val = 2048 * (t.val / 16 % 4) + cc.val) :
    (outsAt0 m c t.val t.isLt).1 (ix2 p cc) = kernelEntry (Wt m c) (At m c) (Bt m c) (Xt m c) r col := by
  have hN : t.val < 256 := lt_of_lt_of_eq t.isLt (show cfg0.N = 256 from N_0)
  have hlt : 64 * (t.val / 64) + 16 * (t.val / 16 % 4) + 14 < cfg0.N := by have hN' : cfg0.N = 256 := N_0; omega
  have ih := partial_sums m c (t.val / 64) (t.val / 16 % 4) (by omega) (by omega) 14 (by omega) hlt
  have ec : outsAt0 m c (t.val - 1) (Nat.lt_of_le_of_lt (Nat.sub_le _ _) t.isLt)
      = outsAt0 m c (64 * (t.val / 64) + 16 * (t.val / 16 % 4) + 14) hlt :=
    outsAt_congr m c _ _ _ _ (by omega)
  refine out_last m c t hk p cc r col hr hc ?_ ?_
  · rw [ec]; exact ih.2 p cc r col hr hc
  · intro q; rw [ec]; exact ih.1 q cc col hc

end Cert.KernelIdeal.RunningSums

end
-- ==== Proof.ResultArray.lean ====
/-
  From the output blocks to the whole result array. The output block of (row block i, column block j) is written back
  to the result once, after the last of its 16 grid positions, and by then it holds the kernel's closed form at every
  entry (the running sums). The 16 blocks tile the result: entry (r, c) lies in the block of i = r / 1024, j = c / 2048,
  written back at position 64 i + 16 j + 15. So after the run the result array is the closed form everywhere.
-/
import proofs.«114844_j40372692583098_2_alg».proof.Proof.RunningSums
import proofs.«114844_j40372692583098_2_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.ResultArray

open Cert.KernelIdeal Cert.KernelIdeal.Gen Cert.LoraSpec Cert.KernelIdeal.RunningSums Cert.KernelIdeal.Blocks

variable (m : (ℓ : Loc nD τ sig) → Buf (Elt Ideal) ℓ) (ρ : Dev nD → PrngReg)

/-- The result array: the kernel's closed form of the four arrays as the region finds them. -/
def result (c : Dev nD) : Buf (Elt Ideal) ((c : Thread nD τ).loc main_v0) :=
  LoraSpec.result (Wt m c) (At m c) (Bt m c) (Xt m c)

/-- At a last step the output block is the closed form read through the block's place in the result. -/
theorem block_value (c : Dev nD) (t : Fin cfg0.N) (hk : t.val % 16 = 15) (j : S1024x2048.Idx) :
    (outsAt0 m c t.val t.isLt).1 j = result m c (((cfg0.win 4).blk t).view.emb j) := by
  obtain ⟨p, cc, rfl⟩ : ∃ (p : Fin 1024) (cc : Fin 2048), j = ix2 p cc := ⟨j 0, j 1, eq_ix2 j⟩
  have hi := output_index t
  have hN : t.val < 256 := lt_of_lt_of_eq t.isLt (show cfg0.N = 256 from N_0)
  have hp := p.isLt
  have hcc := cc.isLt
  refine (block_done m c t hk p cc ⟨1024 * (t.val / 64) + p.val, by omega⟩ ⟨2048 * (t.val / 16 % 4) + cc.val, by omega⟩ rfl rfl).trans ?_
  unfold result LoraSpec.result
  congr 1 <;> apply Fin.ext
  · show 1024 * (t.val / 64) + p.val = win0_4.index t 0 * 1024 + 1 * p.val
    rw [hi.1]; omega
  · show 2048 * (t.val / 16 % 4) + cc.val = win0_4.index t 1 * 2048 + 1 * cc.val
    rw [hi.2]; omega

/-- What a flushing position writes back is its block of the result. -/
theorem flushed_eq (c : Dev nD) (t : Fin cfg0.N) (hf : (cfg0.win 4).flush t = true) :
    (dats m 0 c).flushed 4 t = ((cfg0.win 4).blk t).view.read (Elt Ideal) (result m c) := by
  have hk : t.val % 16 = 15 := (flush0_4 t).mp hf
  rw [Value.flushed4]
  funext j
  exact block_value m c t hk j

/-- An index of the result is in position t's block iff each coordinate is in the block's range on its axis. -/
theorem mem_block (t : Fin cfg0.N) (i : S4096x8192.Idx) :
    i ∈ ((cfg0.win 4).blk t).view.set
      ↔ ∀ a : Fin 2, win0_4.index t a * S1024x2048.size a ≤ (i a).val ∧ (i a).val < win0_4.index t a * S1024x2048.size a + S1024x2048.size a := by
  show i ∈ ((View.whole main_v0).slice (win0_4.rect t)).set ↔ _
  rw [View.set_slice_whole, Rect.mem_set_unit]
  exact Iff.rfl

/-- Every index of the result lies in the block of some flushing position. -/
theorem cover (i : S4096x8192.Idx) : ∃ t : Fin cfg0.N, (cfg0.win 4).flush t = true ∧ i ∈ ((cfg0.win 4).blk t).view.set := by
  have h0 : (i 0).val < 4096 := (i 0).isLt
  have h1 : (i 1).val < 8192 := (i 1).isLt
  have hN : cfg0.N = 256 := N_0
  obtain ⟨t, ht⟩ : ∃ t : Fin cfg0.N, t.val = 64 * ((i 0).val / 1024) + 16 * ((i 1).val / 2048) + 15 :=
    ⟨⟨64 * ((i 0).val / 1024) + 16 * ((i 1).val / 2048) + 15, by omega⟩, rfl⟩
  have hi := output_index t
  refine ⟨t, (flush0_4 t).mpr (by omega), ?_⟩
  rw [mem_block]
  intro a
  match a with
  | ⟨0, _⟩ =>
    show win0_4.index t 0 * 1024 ≤ (i 0).val ∧ (i 0).val < win0_4.index t 0 * 1024 + 1024
    rw [hi.1]; omega
  | ⟨1, _⟩ =>
    show win0_4.index t 1 * 2048 ≤ (i 1).val ∧ (i 1).val < win0_4.index t 1 * 2048 + 2048
    rw [hi.2]; omega

/-- After the run the result array is the closed form. -/
theorem final (c : Dev nD) : (dats m 0 c).arrAt 4 cfg0.N = result m c :=
  (dats m 0 c).arrAt_eq_of_cover 4 (result m c) (flushed_eq m c) cover

/-- The kernel's run: it terminates with the result array at the closed form and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ResultArray

end
-- ==== Proof.ReferenceValue.lean ====
/-
  The reference, entry by entry. The reference forms the low-rank product A B (a contraction over the 16 ranks), adds the
  weights, and contracts the sum with the input over the 4096 positions. Read at entry (r, c) of the result through the
  generated read-at-an-index lemmas this is the reference's closed form: the sum over the positions k of
  (W(r, k) + sum over q of A(r, q) * B(q, k)) * X(k, c).
-/
import proofs.«114844_j40372692583098_2_alg».proof.Proof.Gen.ReferenceIdeal.Read
import proofs.«114844_j40372692583098_2_alg».proof.Proof.LoraSpec

noncomputable section

open Idealize.ShloMosaic Idealize.ShloMosaic.ValueIdx

namespace Cert.ReferenceIdeal.RefValue

open Cert.ReferenceIdeal Cert.ReferenceIdeal.Read Cert.LoraSpec

/-- The reference's result at index i is its closed form at the row and column of i. -/
theorem reference_value (x0 : (⟨S4096x8192, .f32⟩ : BufTy).Contents (Elt Ideal)) (x1 : (⟨S4096x4096, .f32⟩ : BufTy).Contents (Elt Ideal))
    (x2 : (⟨S4096x16, .f32⟩ : BufTy).Contents (Elt Ideal)) (x3 : (⟨S16x4096, .f32⟩ : BufTy).Contents (Elt Ideal)) (i : S4096x8192.Idx) :
    val_main_v2 (F := Ideal) x0 x1 x2 x3 i
      = referenceEntry x1 x2 x3 x0 ⟨(i 0).val, (i 0).isLt⟩ ⟨(i 1).val, (i 1).isLt⟩ := by
  rw [val_main_v2_apply]
  unfold referenceEntry
  refine Finset.sum_congr rfl fun k _ => ?_
  have el : lidx_main_v2 i k = ix2 (⟨(i 0).val, (i 0).isLt⟩ : Fin 4096) k :=
    funext fun a => Fin.ext (by match a with | ⟨0, _⟩ => rfl | ⟨1, _⟩ => rfl)
  have er : ridx_main_v2 i k = ix2 k (⟨(i 1).val, (i 1).isLt⟩ : Fin 8192) :=
    funext fun a => Fin.ext (by match a with | ⟨0, _⟩ => rfl | ⟨1, _⟩ => rfl)
  rw [el, er, val_main_v1_apply, val_main_v0_apply]
  have e0 : ∀ q : Fin 16, lidx_main_v0 (ix2 (⟨(i 0).val, (i 0).isLt⟩ : Fin 4096) k) q = ix2 (⟨(i 0).val, (i 0).isLt⟩ : Fin 4096) q :=
    fun q => funext fun a => Fin.ext (by match a with | ⟨0, _⟩ => rfl | ⟨1, _⟩ => rfl)
  have e1 : ∀ q : Fin 16, ridx_main_v0 (ix2 (⟨(i 0).val, (i 0).isLt⟩ : Fin 4096) k) q = ix2 q k :=
    fun q => funext fun a => Fin.ext (by match a with | ⟨0, _⟩ => rfl | ⟨1, _⟩ => rfl)
  rw [Finset.sum_congr rfl (fun q _ => by rw [e0 q, e1 q])]
  rfl

end Cert.ReferenceIdeal.RefValue

end
-- ==== Proof.Finite.lean ====
/-
  The precondition, read back. The predicate asks, of each of the four float arrays, that every entry's absolute value be
  below plus infinity. An extended real whose absolute value is below plus infinity is a real number (of the two
  infinities, one is its own absolute value and the other's absolute value is the first). So under the precondition every
  entry of every array is a real number, which is what the exchange of sums and distributivity need.
-/
import proofs.«114844_j40372692583098_2_alg».proof.Pre_finite_inputs
import proofs.«114844_j40372692583098_2_alg».proof.Proof.Gen.Pre_finite_inputs
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.Pre_finite_inputs.Finite

open Cert.Pre_finite_inputs

/-- The predicate's result has a single index. -/
instance : Subsingleton S_.Idx := ⟨fun a b => funext fun d => d.elim0⟩

/-- The word the predicate compares against denotes plus infinity. -/
theorem top_word : Ideal.ofBits .f32 0x7F800000#32 = (⊤ : EReal) := by
  simp [Ideal.ofBits, Ideal.ieee]

/-- An extended real whose absolute value compares below plus infinity is a real number. -/
theorem real_of_abs_lt_top (x : EReal)
    (h : FloatOps.cmpf (F := Ideal) (φ := .f32) .olt (FloatOps.absf (F := Ideal) (φ := .f32) x) (Ideal.ofBits .f32 0x7F800000#32) = 1#1) :
    ∃ r : ℝ, x = r := by
  rw [Ideal.cmpf_def, Ideal.absf_def, top_word] at h
  have hlt : max x (-x) < ⊤ := by
    by_cases hlt : max x (-x) < ⊤
    · exact hlt
    · simp [Ideal.cmp, hlt] at h
  induction x using EReal.rec with
  | bot => simp at hlt
  | coe r => exact ⟨r, rfl⟩
  | top => simp at hlt

/-- Under the precondition every entry of the four arrays is a real number. -/
theorem all_real (a0 : FVec Ideal S4096x8192 .f32) (a1 : FVec Ideal S4096x4096 .f32) (a2 : FVec Ideal S4096x16 .f32)
    (a3 : FVec Ideal S16x4096 .f32) (h : fn (F := Ideal) a0 a1 a2 a3 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have h' := congrFun h ix0
  dsimp only [fn, fn_part1] at h'
  obtain ⟨h012, h3⟩ := IntOp.andi_eq_one.1 h'
  obtain ⟨h01, h2⟩ := IntOp.andi_eq_one.1 h012
  obtain ⟨h0, h1⟩ := IntOp.andi_eq_one.1 h01
  refine ⟨fun i => ?_, fun i => ?_, fun i => ?_, fun i => ?_⟩
  · exact real_of_abs_lt_top (a0 i) (Host.reduce_andi_all _ _ _ _ ix0 h0 i)
  · exact real_of_abs_lt_top (a1 i) (Host.reduce_andi_all _ _ _ _ ix0 h1 i)
  · exact real_of_abs_lt_top (a2 i) (Host.reduce_andi_all _ _ _ _ ix0 h2 i)
  · exact real_of_abs_lt_top (a3 i) (Host.reduce_andi_all _ _ _ _ ix0 h3 i)

end Cert.Pre_finite_inputs.Finite

end
-- ==== Proof.lean ====
/-
  A low-rank update of a weight matrix applied to an input: the kernel computes W X + A (B X), the reference (W + A B) X.

  W is [4096, 4096], A is [4096, 16], B is [16, 4096], X is [4096, 8192]. The kernel never forms A B. It walks a grid of
  4 x 4 output blocks of [1024, 2048], each over 16 steps along the contracted axis; at every step it adds the product of a
  [1024, 256] block of W with a [256, 2048] block of X to the output block, and the product of a [16, 256] block of B with the
  same block of X to a small [16, 2048] scratch; at the last step the scratch is B X on the block's columns, and the product
  of the block's rows of A with it is added to the output block, which is then written back. The casts to bfloat16 in front
  of each product are the identity over the extended reals, and a product into a zero accumulator is the plain sum of products.

  So the kernel leaves at entry (r, c)
      sum_s W(r, s) X(s, c)  +  sum_q A(r, q) (sum_s B(q, s) X(s, c)),
  and the reference
      sum_s (W(r, s) + sum_q A(r, q) B(q, s)) X(s, c).
  These agree by distributivity and an exchange of the two sums, laws that hold for real numbers and fail at the infinities:
  this is where the precondition (every input entry finite) is used.

  The modules: the law over the reals and its form over the extended reals (LibLoraLaw); the two closed forms and their equality
  (LoraSpec); what each of the body's three control cases leaves (StepValues, Steps); each step's arithmetic at an entry
  (StepAtIndex, over the plain-product lemma of LibPlainDot); where a step's blocks sit in the whole arrays (Blocks); the
  running sums along a block's 16 steps (RunningSums, over the tile sums of LibSums); from the blocks to the result array
  (ResultArray); the reference at an entry (ReferenceValue); the precondition read back (Finite). The runs themselves, the
  frames, and the reference's operations read at an index are the generated modules imported below.
-/
import proofs.«114844_j40372692583098_2_alg».proof.Defs
import proofs.«114844_j40372692583098_2_alg».proof.Proof.Gen.Kernel
import proofs.«114844_j40372692583098_2_alg».proof.Proof.Gen.Kernel.Skeleton
import proofs.«114844_j40372692583098_2_alg».proof.Proof.Gen.Kernel.Launch
import proofs.«114844_j40372692583098_2_alg».proof.Proof.Gen.Kernel.Points
import proofs.«114844_j40372692583098_2_alg».proof.Proof.Gen.Kernel.Frame
import proofs.«114844_j40372692583098_2_alg».proof.Proof.Gen.KernelIdeal
import proofs.«114844_j40372692583098_2_alg».proof.Proof.Gen.KernelIdeal.Skeleton
import proofs.«114844_j40372692583098_2_alg».proof.Proof.Gen.KernelIdeal.Launch
import proofs.«114844_j40372692583098_2_alg».proof.Proof.Gen.KernelIdeal.Points
import proofs.«114844_j40372692583098_2_alg».proof.Proof.Gen.KernelIdeal.Frame
import proofs.«114844_j40372692583098_2_alg».proof.Proof.Gen.KernelIdeal.Value
import proofs.«114844_j40372692583098_2_alg».proof.Proof.Gen.ReferenceIdeal
import proofs.«114844_j40372692583098_2_alg».proof.Proof.Gen.ReferenceIdeal.Run
import proofs.«114844_j40372692583098_2_alg».proof.Proof.Gen.ReferenceIdeal.Read
import proofs.«114844_j40372692583098_2_alg».proof.Proof.Gen.Pre_finite_inputs
import proofs.«114844_j40372692583098_2_alg».proof.Proof.ResultArray
import proofs.«114844_j40372692583098_2_alg».proof.Proof.ReferenceValue
import proofs.«114844_j40372692583098_2_alg».proof.Proof.Finite
import Idealize.ShloMosaic.Adequacy
import Idealize.ShloMosaic.Init

noncomputable section

namespace Cert.Proof

open Idealize.ShloMosaic Idealize.SL.Sem

/-- The kernel as printed runs to the end without a fault and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- Over the extended reals, from finite inputs that agree, the kernel and the reference end with the same result:
    the kernel's array is its closed form, the reference's entry is the reference's closed form, and the two closed forms
    agree when every entry is a real number. -/
theorem algebraic : Cert.algebraic_KernelIdeal_ReferenceIdeal := by
  intro m ρ m' ρ' hpre hagree
  refine ⟨fun c => Cert.KernelIdeal.ResultArray.result m c, Cert.KernelIdeal.ResultArray.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hW, hA, hB⟩ := Cert.Pre_finite_inputs.Finite.all_real _ _ _ _ (hpre c)
  rw [Cert.ReferenceIdeal.Read.val_main_v2_eq, (hagree c).1, (hagree c).2.1, (hagree c).2.2.1, (hagree c).2.2.2]
  funext i
  rw [Cert.ReferenceIdeal.RefValue.reference_value]
  exact (Cert.LoraSpec.kernelEntry_eq_referenceEntry _ _ _ _ hW hA hB hX _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
